-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 58
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerPayload.lean ====
/-
  What one grid point of each dense kernel stores, read at one entry of its 5000 × 128 block.

  With `a` the block of neighbour sums, `d` the block's column of reciprocal degrees, `x` the block of the nodes' own
  features, `Wl`, `Wr` the weight matrices and `b` the bias row, the entry (p, q) of the stored block is
      (∑ₖ (a p k · d p 0) · Wl k q)  +  b 0 q  +  ∑ₖ x p k · Wr k q,
  rectified by `max · 0` in the first kernel.  On the extended reals the changes of float format are the identity, a
  matrix product into a zero accumulator is the plain sum over the contracted axis, the column `d` is broadcast along
  the features and the row `b` along the nodes.
-/
import proofs.«103201_j2654289789451_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SageValue

open Idealize.ShloMosaic Idealize.ShloMosaic.ValueIdx Cert.KernelIdeal Cert.KernelIdeal.Gen
open scoped BigOperators

/-- A column `[a, 1]` broadcast to `[a, b]` reads, at `(p, c)`, the column's entry of row `p`. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

local notation "D" => dot_S5000x128_S128x128_S5000x128_1_0_0_1_n_n

theorem lhs_row (i : S5000x128.Idx) (k : (D).contr.Idx) : ((D).lhsIdx i k 0).val = (i 0).val := by
  unfold DotDims.lhsIdx
  rw [dif_neg (show ¬(0 : Fin S5000x128.rank) ∈ (D).lhsBatch by decide),
    dif_pos (show (0 : Fin S5000x128.rank) ∈ (D).lhsNonContracting by decide)]
  rfl

theorem rhs_col (i : S5000x128.Idx) (k : (D).contr.Idx) : ((D).rhsIdx i k 1).val = (i 1).val := by
  unfold DotDims.rhsIdx
  rw [dif_neg (show ¬(1 : Fin S128x128.rank) ∈ (D).rhsBatch by decide),
    dif_pos (show (1 : Fin S128x128.rank) ∈ (D).rhsNonContracting by decide)]
  rfl

/-- The block product into a zero accumulator, at `(p, q)`: the sum over the one contracted axis. -/
theorem mm_apply {φ₁ φ₂ : FTy} (l : FVec Ideal S5000x128 φ₁) (r : FVec Ideal S128x128 φ₂) (p : Fin 5000) (q : Fin 128) :
    matmul (D) none l r (constant S5000x128 .f32 0x00000000#32) (ix2 p q) = ∑ k : Fin 128, l (ix2 p k) * r (ix2 k q) := by
  simp only [matmul]
  rw [Ideal.matmul_constant_zero_apply, ← Equiv.sum_comp (contrEquiv1 (D) 128 rfl rfl).symm]
  refine Finset.sum_congr rfl fun k _ => ?_
  have hk := contrEquiv1_symm_val (D) 128 rfl rfl k
  have el : (D).lhsIdx (ix2 p q) ((contrEquiv1 (D) 128 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 128 rfl rfl).symm k) = ix2 k q := funext fun a => Fin.ext (by
    match a with
    | ⟨0, _⟩ => exact ((D).rhsIdx_val_of_single rfl _ _).trans hk
    | ⟨1, _⟩ => exact rhs_col _ _)
  rw [el, er]

/-- The first kernel's stored block at `(p, q)`. -/
theorem pay0_apply (a : Vec Ideal S5000x128 .f32) (d : Vec Ideal S5000x1 .f32) (x : Vec Ideal S5000x128 .f32)
    (wl wr : Vec Ideal S128x128 .f32) (b : Vec Ideal S1x128 .f32) (p : Fin 5000) (q : Fin 128) :
    k0_pay1 (F := Ideal) a d x wl wr b (ix2 p q)
      = max ((∑ k : Fin 128, (a (ix2 p k) * d (ix2 p 0)) * wl (ix2 k q)) + b (ix2 0 q)
          + ∑ k : Fin 128, x (ix2 p k) * wr (ix2 k q)) 0 := by
  unfold k0_pay1
  simp only [shapeCast_self]
  show max ((matmul (F := Ideal) (D) none (truncf .bf16 (mulf a (broadcastTo S5000x128 d _)) _) (truncf .bf16 wl _)
        (constant S5000x128 .f32 0x00000000#32) (ix2 p q) + broadcastTo S5000x128 b _ (ix2 p q))
      + matmul (F := Ideal) (D) none (truncf .bf16 x _) (truncf .bf16 wr _) (constant S5000x128 .f32 0x00000000#32) (ix2 p q))
      (Ideal.ofBits .f32 0x00000000#32) = _
  rw [mm_apply, mm_apply, broadcastTo_1b_ab_apply, Ideal.ofBits_zero_f32]
  refine congrArg (fun s => max (s + b (ix2 0 q) + ∑ k : Fin 128, x (ix2 p k) * wr (ix2 k q)) 0)
    (Finset.sum_congr rfl fun k _ => ?_)
  show (a (ix2 p k) * broadcastTo S5000x128 d _ (ix2 p k)) * wl (ix2 k q) = _
  rw [bcast_col]

/-- The second kernel's stored block at `(p, q)`: the same without the rectifier. -/
theorem pay1_apply (a : Vec Ideal S5000x128 .f32) (d : Vec Ideal S5000x1 .f32) (x : Vec Ideal S5000x128 .bf16)
    (wl wr : Vec Ideal S128x128 .f32) (b : Vec Ideal S1x128 .f32) (p : Fin 5000) (q : Fin 128) :
    k1_pay1 (F := Ideal) a d x wl wr b (ix2 p q)
      = (∑ k : Fin 128, (a (ix2 p k) * d (ix2 p 0)) * wl (ix2 k q)) + b (ix2 0 q)
          + ∑ k : Fin 128, x (ix2 p k) * wr (ix2 k q) := by
  unfold k1_pay1
  simp only [shapeCast_self]
  show (matmul (F := Ideal) (D) none (truncf .bf16 (mulf a (broadcastTo S5000x128 d _)) _) (truncf .bf16 wl _)
        (constant S5000x128 .f32 0x00000000#32) (ix2 p q) + broadcastTo S5000x128 b _ (ix2 p q))
      + matmul (F := Ideal) (D) none x (truncf .bf16 wr _) (constant S5000x128 .f32 0x00000000#32) (ix2 p q) = _
  rw [mm_apply, mm_apply, broadcastTo_1b_ab_apply]
  refine congrArg (fun s => s + b (ix2 0 q) + ∑ k : Fin 128, x (ix2 p k) * wr (ix2 k q))
    (Finset.sum_congr rfl fun k _ => ?_)
  show (a (ix2 p k) * broadcastTo S5000x128 d _ (ix2 p k)) * wl (ix2 k q) = _
  rw [bcast_col]

end Cert.KernelIdeal.SageValue

end
-- ==== Proof.DenseSpec.lean ====
/-
  One mean-aggregation graph-convolution layer as a function of whole arrays, and the one law of extended-real
  arithmetic the two programs differ by.

  For a node `r` and an output feature `q` the layer's value is
      (∑ₖ (agg r k · s r) · Wl k q)  +  b q  +  ∑ₖ x r k · Wr k q,
  where `agg r` is the sum of the neighbours' feature rows, `s r` the reciprocal of the node's clamped in-degree,
  `Wl`, `Wr` the two weight matrices and `b` the bias.  One program multiplies the neighbour sum by the reciprocal
  `1 / d`, the other divides it by `d`; with `d = max deg 1` the divisor is never zero, and off zero the quotient
  of the extended reals IS the product with the inverse, at the infinities too.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx
open scoped BigOperators

/-- Node features: 100000 nodes, 128 features each. -/
abbrev Nodes : Shape := ⟨2, ![100000, 128]⟩
/-- A weight matrix. -/
abbrev Sq : Shape := ⟨2, ![128, 128]⟩

/-- The layer at node `r`, feature `q`. -/
def layerAt (agg x : Nodes.Idx → EReal) (s : Fin 100000 → EReal) (wl wr : Sq.Idx → EReal) (b : Fin 128 → EReal)
    (r : Fin 100000) (q : Fin 128) : EReal :=
  (∑ k : Fin 128, (agg (ix2 r k) * s r) * wl (ix2 k q)) + b q + ∑ k : Fin 128, x (ix2 r k) * wr (ix2 k q)

/-- The layer as a whole array. -/
def layer (agg x : Nodes.Idx → EReal) (s : Fin 100000 → EReal) (wl wr : Sq.Idx → EReal) (b : Fin 128 → EReal) :
    Nodes.Idx → EReal :=
  fun i => layerAt agg x s wl wr b (i 0) (i 1)

/-- The layer followed by the rectifier `max · 0`. -/
def layerRelu (agg x : Nodes.Idx → EReal) (s : Fin 100000 → EReal) (wl wr : Sq.Idx → EReal) (b : Fin 128 → EReal) :
    Nodes.Idx → EReal :=
  fun i => max (layerAt agg x s wl wr b (i 0) (i 1)) 0

/-- A degree clamped below by one is not zero. -/
theorem max_one_ne_zero (e : EReal) : max e 1 ≠ 0 :=
  (lt_of_lt_of_le zero_lt_one (le_max_right e 1)).ne'

/-- Off zero, scaling by the reciprocal `1 / d` is dividing by `d`: both are the product with `d⁻¹`. -/
theorem mul_div_one (a d : EReal) (hd : d ≠ 0) : a * Ideal.div 1 d = Ideal.div a d := by
  unfold Ideal.div
  rw [if_neg hd, if_neg hd, one_mul]

/-- The same with the two float literals `1.0` still spelt as bit patterns. -/
theorem mul_div_lit (a e : EReal) :
    a * Ideal.div (Ideal.ofBits .f32 0x3F800000#32) (max e (Ideal.ofBits .f32 0x3F800000#32))
      = Ideal.div a (max e (Ideal.ofBits .f32 0x3F800000#32)) := by
  rw [Ideal.ofBits_one_f32]
  exact mul_div_one a _ (max_one_ne_zero e)

end Cert.Sage

end
-- ==== Proof.KerRegion0.lean ====
/-
  The first dense kernel over its whole grid: the array it leaves, as one function of the arrays it is entered with.

  The grid has 20 points; point `t` reads rows 5000·t … 5000·t + 4999 of the neighbour sums, of the node features and of
  the reciprocal-degree column, the whole of both weight matrices and of the bias row, and writes rows
  5000·t … 5000·t + 4999 of the result.  So entry (r, q) of the result is the layer's value at node `r`, feature `q`,
  rectified, computed from row `r` of the inputs: the blocks are restrictions of one whole-array function, and the 20
  blocks tile the 100000 rows.  Everything here is stated for ANY contents `V` of the buffers at the region's entry.
-/
import proofs.«103201_j2654289789451_2_alg».proof.Proof.Gen.KernelIdeal.Frame
import proofs.«103201_j2654289789451_2_alg».proof.Proof.KerPayload
import proofs.«103201_j2654289789451_2_alg».proof.Proof.DenseSpec

set_option maxRecDepth 16384

noncomputable section

namespace Cert.KernelIdeal.SageValue

open Idealize.ShloMosaic Idealize.ShloMosaic.TcCoe Idealize.ShloMosaic.ValueIdx Idealize.SL.Sem
open Cert.KernelIdeal Cert.KernelIdeal.Gen Cert.Sage
open scoped BigOperators

/-- Row `p` of block `T` is row `5000·T + p` of the array. -/
def row (T : ℕ) (hT : T < 20) (p : Fin 5000) : Fin 100000 := ⟨T * 5000 + p.val, by have := p.isLt; omega⟩

theorem hz : (![0, 0] : Fin 2 → Nat) = fun _ => 0 := funext fun a => by fin_cases a <;> rfl

/-- One block of the first kernel: if the loaded blocks are rows `5000·T …` of whole arrays, the stored block's entry
    `j` is the rectified layer of those arrays at the array index `i` that `j` sits at. -/
theorem block_relu (a x : Vec Ideal S5000x128 .f32) (d : Vec Ideal S5000x1 .f32) (wl wr : Vec Ideal S128x128 .f32)
    (b : Vec Ideal S1x128 .f32) (A X : Nodes.Idx → EReal) (S : S100000x1.Idx → EReal) (WL WR : Sq.Idx → EReal)
    (B : S1x128.Idx → EReal) (T : ℕ) (hT : T < 20)
    (ha : ∀ p k, a (ix2 p k) = A (ix2 (row T hT p) k)) (hx : ∀ p k, x (ix2 p k) = X (ix2 (row T hT p) k))
    (hd : ∀ p, d (ix2 p 0) = S (ix2 (row T hT p) 0)) (hwl : wl = WL) (hwr : wr = WR) (hb : b = B)
    (j : S5000x128.Idx) (i : Nodes.Idx) (hi0 : (i 0).val = T * 5000 + (j 0).val) (hi1 : (i 1).val = (j 1).val) :
    k0_pay1 (F := Ideal) a d x wl wr b j
      = layerRelu A X (fun r => S (ix2 r 0)) WL WR (fun q => B (ix2 0 q)) i := by
  obtain ⟨p, q, rfl⟩ : ∃ (p : Fin 5000) (q : Fin 128), j = ix2 p q := ⟨j 0, j 1, eq_ix2 j⟩
  have hi : i = ix2 (row T hT p) q := funext fun ax => by
    match ax with
    | ⟨0, _⟩ => exact Fin.ext hi0
    | ⟨1, _⟩ => exact Fin.ext hi1
  subst hi hwl hwr hb
  rw [pay0_apply]
  unfold layerRelu layerAt
  simp only [ha, hx, hd]

section Region
variable (V : (c : Dev nD) → (b : Ref sig .tc) → Buf (Elt Ideal) ((c : Thread nD τ).loc b))

/-- The printed index maps, decided over the 20 points: the three row-blocked inputs and the output are at block `t` of
    their rows, the weights and the bias at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt20_0 (t : Fin cfg0.N) : t.val < 20 := lt_of_lt_of_eq t.isLt N_0

/-- The neighbour sums' block at `t`. -/
theorem blk0_0 (c : Dev nD) (t : Fin cfg0.N) (p : Fin 5000) (k : Fin 128) :
    iblk0 V c 0 t (ix2 p k) = V c main_v24 (ix2 (row t.val (lt20_0 t) p) k) := by
  show V c main_v24 (((cfg0.win 0).blk t).view.emb (ix2 p k)) = _
  obtain ⟨e0, e1, -⟩ := idx0 t
  refine congrArg (V c main_v24) (funext fun ax => Fin.ext ?_)
  match ax with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The node features' block at `t`. -/
theorem blk0_1 (c : Dev nD) (t : Fin cfg0.N) (p : Fin 5000) (k : Fin 128) :
    iblk0 V c 1 t (ix2 p k) = V c main_arg0 (ix2 (row t.val (lt20_0 t) p) k) := by
  show V c main_arg0 (((cfg0.win 1).blk t).view.emb (ix2 p k)) = _
  obtain ⟨-, -, e0, e1, -⟩ := idx0 t
  refine congrArg (V c main_arg0) (funext fun ax => Fin.ext ?_)
  match ax with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The reciprocal-degree column's block at `t`. -/
theorem blk0_2 (c : Dev nD) (t : Fin cfg0.N) (p : Fin 5000) :
    iblk0 V c 2 t (ix2 p 0) = V c main_v12 (ix2 (row t.val (lt20_0 t) p) 0) := by
  show V c main_v12 (((cfg0.win 2).blk t).view.emb (ix2 p 0)) = _
  obtain ⟨-, -, -, -, e0, e1, -⟩ := idx0 t
  refine congrArg (V c main_v12) (funext fun ax => Fin.ext ?_)
  match ax with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The first weight matrix is its one block. -/
theorem blk0_3 (c : Dev nD) (t : Fin cfg0.N) : iblk0 V c 3 t = V c main_arg2 := funext fun y => by
  show V c main_arg2 (((cfg0.win 3).blk t).view.emb y) = _
  obtain ⟨-, -, -, -, -, -, e0, e1, -⟩ := idx0 t
  refine congrArg (V c main_arg2) (funext fun ax => Fin.ext ?_)
  match ax with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is its one block. -/
theorem blk0_4 (c : Dev nD) (t : Fin cfg0.N) : iblk0 V c 4 t = V c main_v25 := funext fun y => by
  show V c main_v25 (((cfg0.win 4).blk t).view.emb y) = _
  obtain ⟨-, -, -, -, -, -, -, -, e0, e1, -⟩ := idx0 t
  refine congrArg (V c main_v25) (funext fun ax => Fin.ext ?_)
  match ax with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix is its one block. -/
theorem blk0_5 (c : Dev nD) (t : Fin cfg0.N) : iblk0 V c 5 t = V c main_arg4 := funext fun y => by
  show V c main_arg4 (((cfg0.win 5).blk t).view.emb y) = _
  obtain ⟨-, -, -, -, -, -, -, -, -, -, e0, e1, -⟩ := idx0 t
  refine congrArg (V c main_arg4) (funext fun ax => Fin.ext ?_)
  match ax with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- What the first kernel's result array holds after the region: the rectified layer of the entry contents. -/
def G0 (c : Dev nD) : Nodes.Idx → EReal :=
  layerRelu (V c main_v24) (V c main_arg0) (fun r => V c main_v12 (ix2 r 0)) (V c main_arg2) (V c main_arg4)
    (fun q => V c main_v25 (ix2 0 q))

/-- What point `t` writes back is block `t` of that array. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨-, -, -, -, -, -, -, -, -, -, -, -, e0, e1⟩ := idx0 t
  exact block_relu (iblk0 V c 0 t) (iblk0 V c 1 t) (iblk0 V c 2 t) (iblk0 V c 3 t) (iblk0 V c 5 t) (iblk0 V c 4 t)
    (V c main_v24) (V c main_arg0) (V c main_v12) (V c main_arg2) (V c main_arg4) (V c main_v25) t.val (lt20_0 t)
    (blk0_0 V c t) (blk0_1 V c t) (blk0_2 V c t) (blk0_3 V c t) (blk0_5 V c t) (blk0_4 V c t)
    ((cfg0.win 6).xinj (grid0.coords t) j) (((cfg0.win 6).blk t).view.emb j)
    (by show win0_6.index t (0 : Fin 2) * 5000 + 1 * (j 0).val = t.val * 5000 + (j 0).val; rw [e0]; omega)
    (by show win0_6.index t (1 : Fin 2) * 128 + 1 * (j 1).val = (j 1).val; rw [e1]; omega)

/-- An index of the result is in point `t`'s block iff each coordinate is in the block's range. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Row `r` is in the block of point `r / 5000`: the 20 blocks cover the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨-, -, -, -, -, -, -, -, -, -, -, -, e0, e1⟩ := idx0 ⟨(i 0).val / 5000, hN⟩
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    rw [e1]; omega

/-- The first kernel's result array after the region. -/
theorem final0 (c : Dev nD) : (dat0 V c).arrAt 6 cfg0.N = G0 V c :=
  (dat0 V c).arrAt_eq_of_cover 6 (G0 V c) (fun t _ => flushed0_eq V c t) cover0

end Region

end Cert.KernelIdeal.SageValue

end
-- ==== Proof.KerRegion1.lean ====
/-
  The second dense kernel over its whole grid: the array it leaves, as one function of the arrays it is entered with.

  The grid has 20 points; point `t` reads rows 5000·t … 5000·t + 4999 of the neighbour sums, of the node features and of
  the reciprocal-degree column, the whole of both weight matrices and of the bias row, and writes rows
  5000·t … 5000·t + 4999 of the result.  So entry (r, q) of the result is the layer's value at node `r`, feature `q`
  (this kernel has no rectifier; its node features are the first kernel's result), computed from row `r` of the inputs: the blocks are restrictions of one whole-array function, and the 20
  blocks tile the 100000 rows.  Everything here is stated for ANY contents `V` of the buffers at the region's entry.
-/
import proofs.«103201_j2654289789451_2_alg».proof.Proof.Gen.KernelIdeal.Frame
import proofs.«103201_j2654289789451_2_alg».proof.Proof.KerRegion0
import proofs.«103201_j2654289789451_2_alg».proof.Proof.DenseSpec

set_option maxRecDepth 16384

noncomputable section

namespace Cert.KernelIdeal.SageValue

open Idealize.ShloMosaic Idealize.ShloMosaic.TcCoe Idealize.ShloMosaic.ValueIdx Idealize.SL.Sem
open Cert.KernelIdeal Cert.KernelIdeal.Gen Cert.Sage
open scoped BigOperators

/-- One block of the second kernel: if the loaded blocks are rows `5000·T …` of whole arrays, the stored block's entry
    `j` is the layer of those arrays at the array index `i` that `j` sits at. -/
theorem block_lin (a : Vec Ideal S5000x128 .f32) (x : Vec Ideal S5000x128 .bf16) (d : Vec Ideal S5000x1 .f32) (wl wr : Vec Ideal S128x128 .f32)
    (b : Vec Ideal S1x128 .f32) (A X : Nodes.Idx → EReal) (S : S100000x1.Idx → EReal) (WL WR : Sq.Idx → EReal)
    (B : S1x128.Idx → EReal) (T : ℕ) (hT : T < 20)
    (ha : ∀ p k, a (ix2 p k) = A (ix2 (row T hT p) k)) (hx : ∀ p k, x (ix2 p k) = X (ix2 (row T hT p) k))
    (hd : ∀ p, d (ix2 p 0) = S (ix2 (row T hT p) 0)) (hwl : wl = WL) (hwr : wr = WR) (hb : b = B)
    (j : S5000x128.Idx) (i : Nodes.Idx) (hi0 : (i 0).val = T * 5000 + (j 0).val) (hi1 : (i 1).val = (j 1).val) :
    k1_pay1 (F := Ideal) a d x wl wr b j
      = layer A X (fun r => S (ix2 r 0)) WL WR (fun q => B (ix2 0 q)) i := by
  obtain ⟨p, q, rfl⟩ : ∃ (p : Fin 5000) (q : Fin 128), j = ix2 p q := ⟨j 0, j 1, eq_ix2 j⟩
  have hi : i = ix2 (row T hT p) q := funext fun ax => by
    match ax with
    | ⟨0, _⟩ => exact Fin.ext hi0
    | ⟨1, _⟩ => exact Fin.ext hi1
  subst hi hwl hwr hb
  rw [pay1_apply]
  unfold layer layerAt
  simp only [ha, hx, hd]

section Region
variable (V : (c : Dev nD) → (b : Ref sig .tc) → Buf (Elt Ideal) ((c : Thread nD τ).loc b))

/-- The printed index maps, decided over the 20 points: the three row-blocked inputs and the output are at block `t` of
    their rows, the weights and the bias at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt20_1 (t : Fin cfg1.N) : t.val < 20 := lt_of_lt_of_eq t.isLt N_1

/-- The neighbour sums' block at `t`. -/
theorem blk1_0 (c : Dev nD) (t : Fin cfg1.N) (p : Fin 5000) (k : Fin 128) :
    iblk1 V c 0 t (ix2 p k) = V c main_v37 (ix2 (row t.val (lt20_1 t) p) k) := by
  show V c main_v37 (((cfg1.win 0).blk t).view.emb (ix2 p k)) = _
  obtain ⟨e0, e1, -⟩ := idx1 t
  refine congrArg (V c main_v37) (funext fun ax => Fin.ext ?_)
  match ax with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The first layer's output block (this layer's node features) at `t`. -/
theorem blk1_1 (c : Dev nD) (t : Fin cfg1.N) (p : Fin 5000) (k : Fin 128) :
    iblk1 V c 1 t (ix2 p k) = V c main_v26 (ix2 (row t.val (lt20_1 t) p) k) := by
  show V c main_v26 (((cfg1.win 1).blk t).view.emb (ix2 p k)) = _
  obtain ⟨-, -, e0, e1, -⟩ := idx1 t
  refine congrArg (V c main_v26) (funext fun ax => Fin.ext ?_)
  match ax with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The reciprocal-degree column's block at `t`. -/
theorem blk1_2 (c : Dev nD) (t : Fin cfg1.N) (p : Fin 5000) :
    iblk1 V c 2 t (ix2 p 0) = V c main_v12 (ix2 (row t.val (lt20_1 t) p) 0) := by
  show V c main_v12 (((cfg1.win 2).blk t).view.emb (ix2 p 0)) = _
  obtain ⟨-, -, -, -, e0, e1, -⟩ := idx1 t
  refine congrArg (V c main_v12) (funext fun ax => Fin.ext ?_)
  match ax with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

/-- This layer's first weight matrix is its one block. -/
theorem blk1_3 (c : Dev nD) (t : Fin cfg1.N) : iblk1 V c 3 t = V c main_arg5 := funext fun y => by
  show V c main_arg5 (((cfg1.win 3).blk t).view.emb y) = _
  obtain ⟨-, -, -, -, -, -, e0, e1, -⟩ := idx1 t
  refine congrArg (V c main_arg5) (funext fun ax => Fin.ext ?_)
  match ax with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row is its one block. -/
theorem blk1_4 (c : Dev nD) (t : Fin cfg1.N) : iblk1 V c 4 t = V c main_v38 := funext fun y => by
  show V c main_v38 (((cfg1.win 4).blk t).view.emb y) = _
  obtain ⟨-, -, -, -, -, -, -, -, e0, e1, -⟩ := idx1 t
  refine congrArg (V c main_v38) (funext fun ax => Fin.ext ?_)
  match ax with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- This layer's second weight matrix is its one block. -/
theorem blk1_5 (c : Dev nD) (t : Fin cfg1.N) : iblk1 V c 5 t = V c main_arg7 := funext fun y => by
  show V c main_arg7 (((cfg1.win 5).blk t).view.emb y) = _
  obtain ⟨-, -, -, -, -, -, -, -, -, -, e0, e1, -⟩ := idx1 t
  refine congrArg (V c main_arg7) (funext fun ax => Fin.ext ?_)
  match ax with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- What the second kernel's result array holds after the region: the layer of the entry contents. -/
def G1 (c : Dev nD) : Nodes.Idx → EReal :=
  layer (V c main_v37) (V c main_v26) (fun r => V c main_v12 (ix2 r 0)) (V c main_arg5) (V c main_arg7)
    (fun q => V c main_v38 (ix2 0 q))

/-- What point `t` writes back is block `t` of that array. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨-, -, -, -, -, -, -, -, -, -, -, -, e0, e1⟩ := idx1 t
  exact block_lin (iblk1 V c 0 t) (iblk1 V c 1 t) (iblk1 V c 2 t) (iblk1 V c 3 t) (iblk1 V c 5 t) (iblk1 V c 4 t)
    (V c main_v37) (V c main_v26) (V c main_v12) (V c main_arg5) (V c main_arg7) (V c main_v38) t.val (lt20_1 t)
    (blk1_0 V c t) (blk1_1 V c t) (blk1_2 V c t) (blk1_3 V c t) (blk1_5 V c t) (blk1_4 V c t)
    ((cfg1.win 6).xinj (grid1.coords t) j) (((cfg1.win 6).blk t).view.emb j)
    (by show win1_6.index t (0 : Fin 2) * 5000 + 1 * (j 0).val = t.val * 5000 + (j 0).val; rw [e0]; omega)
    (by show win1_6.index t (1 : Fin 2) * 128 + 1 * (j 1).val = (j 1).val; rw [e1]; omega)

/-- An index of the result is in point `t`'s block iff each coordinate is in the block's range. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v39).slice (win1_6.rect t)).set ↔ _
  rw [View.set_slice_whole, Rect.mem_set_unit]
  exact Iff.rfl

/-- Row `r` is in the block of point `r / 5000`: the 20 blocks cover the array. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨-, -, -, -, -, -, -, -, -, -, -, -, e0, e1⟩ := idx1 ⟨(i 0).val / 5000, hN⟩
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    rw [e1]; omega

/-- The second kernel's result array after the region. -/
theorem final1 (c : Dev nD) : (dat1 V c).arrAt 6 cfg1.N = G1 V c :=
  (dat1 V c).arrAt_eq_of_cover 6 (G1 V c) (fun t _ => flushed1_eq V c t) cover1

end Region

end Cert.KernelIdeal.SageValue

end
-- ==== Proof.KerHost.lean ====
/-
  The host operations around the two dense kernels, read as functions of the buffers they start from.

  Before the first kernel the host splits the edge list into its source row and its destination row, counts each
  node's incoming edges (a scatter-add of ones), clamps the count below by one and takes the reciprocal, and sums
  the source nodes' feature rows into their destination nodes (a gather followed by a scatter-add; a negative source
  index wraps around).  Between the two kernels it sums the first layer's rows over the same edges.  Each result is
  stated for ANY starting contents `Vl` of the buffers, as a term over the contents of the few buffers it reads.
-/
import proofs.«103201_j2654289789451_2_alg».proof.Proof.Gen.KernelIdeal.Launch
import Idealize.ShloMosaic.Lib.StableHlo.Run
import Idealize.ShloMosaic.PureOps.Ideal

set_option maxRecDepth 16384

noncomputable section

namespace Cert.KernelIdeal.SageValue

open Idealize.ShloMosaic Idealize.ShloMosaic.TcCoe Idealize.SL.Sem Idealize.ShloMosaic.StableHlo
open Cert.KernelIdeal Cert.KernelIdeal.Gen

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The neighbour sums: for each node, the sum over its incoming edges of the source node's feature row (a source
    index below zero read 100000 higher). -/
def aggOf (h : FVec Ideal S100000x128 .bf16) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32 (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) bitsLt_bf16_f32)

/-- Each node's number of incoming edges, clamped below by one. -/
def degOf (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The column of reciprocals of the clamped degrees. -/
def dinvOf (dst : IVec S1600000 32) : FVec Ideal S100000x1 .f32 :=
  shapeCast S100000x1
    (Host.divf (broadcastInDim S100000 ![] bcast_S_S100000 (constant (F := Ideal) S_ .f32 0x3F800000#32)) (degOf dst))
    shapeCasts_S100000_S100000x1

section Reads
variable (Vl : Valuation τ sig (Elt Ideal))

/-! ### The operations before the first kernel -/

theorem ops0_v1 : after (hostOps0 (F := Ideal)) Vl (Proc.devRef .tc main_v1) = srcOf (Vl (Proc.devRef .tc main_arg1)) := by
  after_results; rfl

theorem ops0_v3 : after (hostOps0 (F := Ideal)) Vl (Proc.devRef .tc main_v3) = dstOf (Vl (Proc.devRef .tc main_arg1)) := by
  after_results; rfl

theorem ops0_v12 : after (hostOps0 (F := Ideal)) Vl (Proc.devRef .tc main_v12) = dinvOf (dstOf (Vl (Proc.devRef .tc main_arg1))) := by
  after_results; rfl

set_option maxHeartbeats 4000000 in
theorem ops0_v24 : after (hostOps0 (F := Ideal)) Vl (Proc.devRef .tc main_v24)
    = aggOf (truncf .bf16 (Vl (Proc.devRef .tc main_arg0)) bitsLt_bf16_f32) (srcOf (Vl (Proc.devRef .tc main_arg1)))
        (dstOf (Vl (Proc.devRef .tc main_arg1))) := by
  unfold aggOf srcOf dstOf
  after_results_simp
  rfl

theorem ops0_v25 : after (hostOps0 (F := Ideal)) Vl (Proc.devRef .tc main_v25)
    = shapeCast S1x128 (Vl (Proc.devRef .tc main_arg3)) shapeCasts_S128_S1x128 := by
  after_results; rfl

theorem ops0_arg0 : after (hostOps0 (F := Ideal)) Vl (Proc.devRef .tc main_arg0) = Vl (Proc.devRef .tc main_arg0) := by
  after_results
theorem ops0_arg2 : after (hostOps0 (F := Ideal)) Vl (Proc.devRef .tc main_arg2) = Vl (Proc.devRef .tc main_arg2) := by
  after_results
theorem ops0_arg4 : after (hostOps0 (F := Ideal)) Vl (Proc.devRef .tc main_arg4) = Vl (Proc.devRef .tc main_arg4) := by
  after_results
theorem ops0_arg5 : after (hostOps0 (F := Ideal)) Vl (Proc.devRef .tc main_arg5) = Vl (Proc.devRef .tc main_arg5) := by
  after_results
theorem ops0_arg6 : after (hostOps0 (F := Ideal)) Vl (Proc.devRef .tc main_arg6) = Vl (Proc.devRef .tc main_arg6) := by
  after_results
theorem ops0_arg7 : after (hostOps0 (F := Ideal)) Vl (Proc.devRef .tc main_arg7) = Vl (Proc.devRef .tc main_arg7) := by
  after_results

/-! ### The operations between the two kernels -/

theorem ops1_v37 : after (hostOps1 (F := Ideal)) Vl (Proc.devRef .tc main_v37)
    = aggOf (Vl (Proc.devRef .tc main_v26)) (Vl (Proc.devRef .tc main_v1)) (Vl (Proc.devRef .tc main_v3)) := by
  after_results; rfl

theorem ops1_v38 : after (hostOps1 (F := Ideal)) Vl (Proc.devRef .tc main_v38)
    = shapeCast S1x128 (Vl (Proc.devRef .tc main_arg6)) shapeCasts_S128_S1x128 := by
  after_results; rfl

theorem ops1_v26 : after (hostOps1 (F := Ideal)) Vl (Proc.devRef .tc main_v26) = Vl (Proc.devRef .tc main_v26) := by
  after_results
theorem ops1_v12 : after (hostOps1 (F := Ideal)) Vl (Proc.devRef .tc main_v12) = Vl (Proc.devRef .tc main_v12) := by
  after_results
theorem ops1_arg5 : after (hostOps1 (F := Ideal)) Vl (Proc.devRef .tc main_arg5) = Vl (Proc.devRef .tc main_arg5) := by
  after_results
theorem ops1_arg7 : after (hostOps1 (F := Ideal)) Vl (Proc.devRef .tc main_arg7) = Vl (Proc.devRef .tc main_arg7) := by
  after_results

end Reads

end Cert.KernelIdeal.SageValue

end
-- ==== Proof.KerRun.lean ====
/-
  The whole idealized kernel program, read: what its result array holds when it returns.

  The program is four stretches: host operations (degrees, reciprocals, first neighbour sums), the first dense kernel,
  host operations (second neighbour sums, over the first kernel's result), the second dense kernel.  Each stretch's
  effect on the buffers it matters for is known — the host stretches as terms over the buffers they read, each kernel's
  result array as the layer function of the arrays it was entered with — so the result is the two-layer network
      out = layer (agg h) h s Wl2 Wr2 b2,   h = relu-layer (agg x) x s Wl1 Wr1 b1,
  with `agg v` the neighbour sums of `v` over the edge list and `s` the reciprocal clamped degrees.  The run itself —
  every weakly fair execution terminates in a state whose buffers hold what the last stretch leaves — is the generated
  frame's run, asked for the result buffer as well as the arguments.
-/
import proofs.«103201_j2654289789451_2_alg».proof.Proof.Gen.KernelIdeal.Frame
import proofs.«103201_j2654289789451_2_alg».proof.Proof.KerRegion0
import proofs.«103201_j2654289789451_2_alg».proof.Proof.KerRegion1
import proofs.«103201_j2654289789451_2_alg».proof.Proof.KerHost

set_option maxRecDepth 16384

noncomputable section

namespace Cert.KernelIdeal.SageValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Sage

local notation "𝕄" => MT nD τ sig Unit (Elt Ideal) ℕ (UR sig nD τ) ℕ

/-- The reciprocal clamped degree of each node, from the edge list. -/
def scaleOf (e : IVec S2x1600000 32) : Fin 100000 → EReal := fun r => dinvOf (dstOf e) (ix2 r 0)

/-- A bias vector, as the one row the kernels load. -/
def biasOf (b : FVec Ideal S128 .f32) : Fin 128 → EReal := fun q => shapeCast S1x128 b shapeCasts_S128_S1x128 (ix2 0 q)

/-- The first layer: rectified, from the node features `x`. -/
def hiddenOf (x : FVec Ideal S100000x128 .f32) (e : IVec S2x1600000 32) (wl wr : FVec Ideal S128x128 .f32)
    (b : FVec Ideal S128 .f32) : Nodes.Idx → EReal :=
  layerRelu (aggOf (truncf .bf16 x bitsLt_bf16_f32) (srcOf e) (dstOf e)) x (scaleOf e) wl wr (biasOf b)

/-- The second layer over the first: the network's output. -/
def outOf (x : FVec Ideal S100000x128 .f32) (e : IVec S2x1600000 32) (wl1 : FVec Ideal S128x128 .f32)
    (b1 : FVec Ideal S128 .f32) (wr1 wl2 : FVec Ideal S128x128 .f32) (b2 : FVec Ideal S128 .f32)
    (wr2 : FVec Ideal S128x128 .f32) : Nodes.Idx → EReal :=
  layer (aggOf (hiddenOf x e wl1 wr1 b1) (srcOf e) (dstOf e)) (hiddenOf x e wl1 wr1 b1) (scaleOf e) wl2 wr2 (biasOf b2)

variable (m : (ℓ : Loc nD τ sig) → Buf (Elt Ideal) ℓ) (ρ : Dev nD → PrngReg)

/-- The network's output of the launch memory's argument arrays. -/
def resultOf (c : Dev nD) : Nodes.Idx → EReal :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The first kernel's entry contents, and what it leaves -/

theorem V1_v24 (c : Dev nD) : V1 m ρ c main_v24
    = aggOf (truncf .bf16 (m ((c : Thread nD τ).loc main_arg0)) bitsLt_bf16_f32) (srcOf (m ((c : Thread nD τ).loc main_arg1)))
        (dstOf (m ((c : Thread nD τ).loc main_arg1))) := ops0_v24 (W0 m ρ c)
theorem V1_v12 (c : Dev nD) : V1 m ρ c main_v12 = dinvOf (dstOf (m ((c : Thread nD τ).loc main_arg1))) := ops0_v12 (W0 m ρ c)
theorem V1_v25 (c : Dev nD) : V1 m ρ c main_v25 = shapeCast S1x128 (m ((c : Thread nD τ).loc main_arg3)) shapeCasts_S128_S1x128 :=
  ops0_v25 (W0 m ρ c)
theorem V1_arg0 (c : Dev nD) : V1 m ρ c main_arg0 = m ((c : Thread nD τ).loc main_arg0) := ops0_arg0 (W0 m ρ c)
theorem V1_arg2 (c : Dev nD) : V1 m ρ c main_arg2 = m ((c : Thread nD τ).loc main_arg2) := ops0_arg2 (W0 m ρ c)
theorem V1_arg4 (c : Dev nD) : V1 m ρ c main_arg4 = m ((c : Thread nD τ).loc main_arg4) := ops0_arg4 (W0 m ρ c)

/-- The first kernel leaves the first layer in its result array. -/
theorem hidden_eq (c : Dev nD) : (dat0 (V1 m ρ) c).arrAt 6 cfg0.N
    = hiddenOf (m ((c : Thread nD τ).loc main_arg0)) (m ((c : Thread nD τ).loc main_arg1)) (m ((c : Thread nD τ).loc main_arg2))
        (m ((c : Thread nD τ).loc main_arg4)) (m ((c : Thread nD τ).loc main_arg3)) := by
  rw [final0 (V1 m ρ) c]
  unfold G0 hiddenOf scaleOf biasOf
  rw [V1_v24 m ρ c, V1_v12 m ρ c, V1_v25 m ρ c, V1_arg0 m ρ c, V1_arg2 m ρ c, V1_arg4 m ρ c]

/-! ## The buffers between the kernels -/

theorem W2_v26 (c : Dev nD) : W2 m ρ c (Proc.devRef .tc main_v26)
    = hiddenOf (m ((c : Thread nD τ).loc main_arg0)) (m ((c : Thread nD τ).loc main_arg1)) (m ((c : Thread nD τ).loc main_arg2))
        (m ((c : Thread nD τ).loc main_arg4)) (m ((c : Thread nD τ).loc main_arg3)) :=
  (W2_arr m ρ c 6).trans (hidden_eq m ρ c)
theorem W2_v1 (c : Dev nD) : W2 m ρ c (Proc.devRef .tc main_v1) = srcOf (m ((c : Thread nD τ).loc main_arg1)) :=
  (W2_of_ne m ρ c main_v1 (by decide)).trans (ops0_v1 (W0 m ρ c))
theorem W2_v3 (c : Dev nD) : W2 m ρ c (Proc.devRef .tc main_v3) = dstOf (m ((c : Thread nD τ).loc main_arg1)) :=
  (W2_of_ne m ρ c main_v3 (by decide)).trans (ops0_v3 (W0 m ρ c))
theorem W2_v12 (c : Dev nD) : W2 m ρ c (Proc.devRef .tc main_v12) = dinvOf (dstOf (m ((c : Thread nD τ).loc main_arg1))) :=
  (W2_arr m ρ c 2).trans (((dat0 (V1 m ρ) c).arrAt_in 2 rfl _).trans ((A_eq0 (V1 m ρ) c 2).trans (V1_v12 m ρ c)))
theorem W2_arg5 (c : Dev nD) : W2 m ρ c (Proc.devRef .tc main_arg5) = m ((c : Thread nD τ).loc main_arg5) :=
  (W2_of_ne m ρ c main_arg5 (by decide)).trans (ops0_arg5 (W0 m ρ c))
theorem W2_arg6 (c : Dev nD) : W2 m ρ c (Proc.devRef .tc main_arg6) = m ((c : Thread nD τ).loc main_arg6) :=
  (W2_of_ne m ρ c main_arg6 (by decide)).trans (ops0_arg6 (W0 m ρ c))
theorem W2_arg7 (c : Dev nD) : W2 m ρ c (Proc.devRef .tc main_arg7) = m ((c : Thread nD τ).loc main_arg7) :=
  (W2_of_ne m ρ c main_arg7 (by decide)).trans (ops0_arg7 (W0 m ρ c))

/-! ## The second kernel's entry contents, and what it leaves -/

theorem V3_v37 (c : Dev nD) : V3 m ρ c main_v37
    = aggOf (hiddenOf (m ((c : Thread nD τ).loc main_arg0)) (m ((c : Thread nD τ).loc main_arg1)) (m ((c : Thread nD τ).loc main_arg2))
        (m ((c : Thread nD τ).loc main_arg4)) (m ((c : Thread nD τ).loc main_arg3)))
      (srcOf (m ((c : Thread nD τ).loc main_arg1))) (dstOf (m ((c : Thread nD τ).loc main_arg1))) :=
  (ops1_v37 (W2 m ρ c)).trans (by rw [W2_v26 m ρ c, W2_v1 m ρ c, W2_v3 m ρ c])
theorem V3_v26 (c : Dev nD) : V3 m ρ c main_v26
    = hiddenOf (m ((c : Thread nD τ).loc main_arg0)) (m ((c : Thread nD τ).loc main_arg1)) (m ((c : Thread nD τ).loc main_arg2))
        (m ((c : Thread nD τ).loc main_arg4)) (m ((c : Thread nD τ).loc main_arg3)) :=
  (ops1_v26 (W2 m ρ c)).trans (W2_v26 m ρ c)
theorem V3_v12 (c : Dev nD) : V3 m ρ c main_v12 = dinvOf (dstOf (m ((c : Thread nD τ).loc main_arg1))) :=
  (ops1_v12 (W2 m ρ c)).trans (W2_v12 m ρ c)
theorem V3_v38 (c : Dev nD) : V3 m ρ c main_v38 = shapeCast S1x128 (m ((c : Thread nD τ).loc main_arg6)) shapeCasts_S128_S1x128 :=
  (ops1_v38 (W2 m ρ c)).trans (by rw [W2_arg6 m ρ c])
theorem V3_arg5 (c : Dev nD) : V3 m ρ c main_arg5 = m ((c : Thread nD τ).loc main_arg5) :=
  (ops1_arg5 (W2 m ρ c)).trans (W2_arg5 m ρ c)
theorem V3_arg7 (c : Dev nD) : V3 m ρ c main_arg7 = m ((c : Thread nD τ).loc main_arg7) :=
  (ops1_arg7 (W2 m ρ c)).trans (W2_arg7 m ρ c)

/-- The result buffer at the return: the network's output. -/
theorem W4_out (c : Dev nD) : W4 m ρ c (Proc.devRef .tc main_v39) = resultOf m c := by
  refine (W4_arr m ρ c 6).trans ((final1 (V3 m ρ) c).trans ?_)
  unfold G1 resultOf outOf scaleOf biasOf
  rw [V3_v37 m ρ c, V3_v26 m ρ c, V3_v12 m ρ c, V3_v38 m ρ c, V3_arg5 m ρ c, V3_arg7 m ρ c]

/-! ## The run -/

set_option backward.isDefEq.respectTransparency.types false in
/-- Every weakly fair execution of the idealized kernel program terminates, nothing faulting, with the result buffer at
    the network's output of the argument arrays and the argument arrays unchanged. -/
theorem run_out : θ_run defs (onTc (τ := τ) (main (F := Ideal))) ⟨m, fun _ => 0, ρ⟩ (fun r => ∀ c : Dev nD,
      r.2.mem ((c.tc : Thread nD τ).loc main_v39) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v39 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageValue

end
-- ==== Proof.RefValue.lean ====
/-
  The reference program's result, read as the same two-layer network.

  The reference computes each layer on whole arrays: the neighbour sums divided, row by row, by the clamped degree,
  times the first weight matrix, plus the bias, plus the node features times the second weight matrix.  Entry (r, q)
  of that is
      (∑ₖ (agg r k / d r) · Wl k q)  +  b q  +  ∑ₖ x r k · Wr k q,
  and since `d r = max (deg r) 1` is never zero the quotient is the product with the reciprocal `1 / d r`: the layer
  function with the scale `s r = 1 / d r`.
-/
import proofs.«103201_j2654289789451_2_alg».proof.Proof.Gen.ReferenceIdeal.Run
import proofs.«103201_j2654289789451_2_alg».proof.Proof.Gen.ReferenceIdeal.Read
import proofs.«103201_j2654289789451_2_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.ReferenceIdeal.SageRef

open Idealize.ShloMosaic Idealize.ShloMosaic.TcCoe Idealize.ShloMosaic.ValueIdx Idealize.SL.Sem
open Cert.ReferenceIdeal Cert.ReferenceIdeal.Gen Cert.Sage
open scoped BigOperators

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The neighbour sums of `h` over the edges. -/
def aggOf (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Each node's number of incoming edges, clamped below by one. -/
def degOf (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

local notation "DR" => dot_S100000x128_S128x128_S100000x128_1_0_0_1_n_n

/-- One layer as the reference writes it, on whole arrays. -/
def refLayer (agg x : FVec Ideal S100000x128 .f32) (dg : FVec Ideal S100000 .f32) (wl wr : FVec Ideal S128x128 .f32)
    (b : FVec Ideal S128 .f32) : FVec Ideal S100000x128 .f32 :=
  addf (addf (Host.dotGeneral (DR) none
        (Host.divf agg (broadcastInDim S100000x128 ![0, 1] bcast_S100000x1_S100000x128_0_1
          (broadcastInDim S100000x1 ![0] bcast_S100000_S100000x1_0 dg))) wl)
      (broadcastInDim S100000x128 ![0, 1] bcast_S1x128_S100000x128_0_1 (broadcastInDim S1x128 ![1] bcast_S128_S1x128_1 b)))
    (Host.dotGeneral (DR) none x wr)

/-- The rectifier as the reference writes it. -/
def refRelu (v : FVec Ideal S100000x128 .f32) : FVec Ideal S100000x128 .f32 :=
  maximumf v (broadcastInDim S100000x128 ![] bcast_S_S100000x128 (constant (F := Ideal) S_ .f32 0x00000000#32))

/-- The reference's result of the argument arrays: two layers, the first rectified. -/
def refOut (x : FVec Ideal S100000x128 .f32) (e : IVec S2x1600000 32) (wl1 : FVec Ideal S128x128 .f32)
    (b1 : FVec Ideal S128 .f32) (wr1 wl2 : FVec Ideal S128x128 .f32) (b2 : FVec Ideal S128 .f32)
    (wr2 : FVec Ideal S128x128 .f32) : FVec Ideal S100000x128 .f32 :=
  refLayer (aggOf (refRelu (refLayer (aggOf x (srcOf e) (dstOf e)) x (degOf (dstOf e)) wl1 wr1 b1)) (srcOf e) (dstOf e))
    (refRelu (refLayer (aggOf x (srcOf e) (dstOf e)) x (degOf (dstOf e)) wl1 wr1 b1)) (degOf (dstOf e)) wl2 wr2 b2

/-! ## The generated run's result term is that network

The run's term, stage by stage (each stage of the generated reading is one operation of the reference): the neighbour
sums, the clamped degrees, each layer, the rectifier. -/

section Stages
open Cert.ReferenceIdeal.Read

variable (x0 : FVec Ideal S100000x128 .f32) (x1 : IVec S2x1600000 32) (x2 : FVec Ideal S128x128 .f32) (x3 : FVec Ideal S128 .f32)
  (x4 x5 : FVec Ideal S128x128 .f32) (x6 : FVec Ideal S128 .f32) (x7 : FVec Ideal S128x128 .f32)

theorem st13 : val_main_v13 (F := Ideal) x0 x1 = aggOf x0 (srcOf x1) (dstOf x1) := rfl
theorem st19 : val_main_v19 (F := Ideal) x1 = degOf (dstOf x1) := rfl
theorem st45 : val_main_v45 (F := Ideal) x1 = degOf (dstOf x1) := rfl
theorem st28 : val_main_v28 (F := Ideal) x0 x1 x2 x3 x4
    = refLayer (val_main_v13 (F := Ideal) x0 x1) x0 (val_main_v19 (F := Ideal) x1) x2 x4 x3 := rfl
theorem st29 : val_main_v29 (F := Ideal) x0 x1 x2 x3 x4 = refRelu (val_main_v28 (F := Ideal) x0 x1 x2 x3 x4) := rfl
theorem st39 : val_main_v39 (F := Ideal) x0 x1 x2 x3 x4
    = aggOf (val_main_v29 (F := Ideal) x0 x1 x2 x3 x4) (srcOf x1) (dstOf x1) := rfl
theorem st54 : val_main_v54 (F := Ideal) x0 x1 x2 x3 x4 x5 x6 x7
    = refLayer (val_main_v39 (F := Ideal) x0 x1 x2 x3 x4) (val_main_v29 (F := Ideal) x0 x1 x2 x3 x4)
        (val_main_v45 (F := Ideal) x1) x5 x7 x6 := rfl

theorem stages_eq : val_main_v54 (F := Ideal) x0 x1 x2 x3 x4 x5 x6 x7 = refOut x0 x1 x2 x3 x4 x5 x6 x7 := by
  rw [st54, st39, st29, st28, st13, st19, st45]
  rfl

end Stages

/-- The generated run's result term is the reference network of the launch memory's arguments. -/
theorem res_eq (m : (ℓ : Loc nD τ sig) → Buf (Elt Ideal) ℓ) (c : Dev nD) :
    Cert.ReferenceIdeal.Value.res_main_v54 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (Cert.ReferenceIdeal.Read.val_main_v54_eq (F := Ideal) m c).trans (stages_eq _ _ _ _ _ _ _ _)

/-! ## One reference layer at an index -/

theorem lhs_row (i : S100000x128.Idx) (k : (DR).contr.Idx) : ((DR).lhsIdx i k 0).val = (i 0).val := by
  unfold DotDims.lhsIdx
  rw [dif_neg (show ¬(0 : Fin S100000x128.rank) ∈ (DR).lhsBatch by decide),
    dif_pos (show (0 : Fin S100000x128.rank) ∈ (DR).lhsNonContracting by decide)]
  rfl

theorem rhs_col (i : S100000x128.Idx) (k : (DR).contr.Idx) : ((DR).rhsIdx i k 1).val = (i 1).val := by
  unfold DotDims.rhsIdx
  rw [dif_neg (show ¬(1 : Fin S128x128.rank) ∈ (DR).rhsBatch by decide),
    dif_pos (show (1 : Fin S128x128.rank) ∈ (DR).rhsNonContracting by decide)]
  rfl

/-- The host's matrix product at `(r, q)`: the sum over the one contracted axis. -/
theorem dg_apply (l : FVec Ideal S100000x128 .f32) (w : FVec Ideal S128x128 .f32) (r : Fin 100000) (q : Fin 128) :
    Host.dotGeneral (DR) none l w (ix2 r q) = ∑ k : Fin 128, l (ix2 r k) * w (ix2 k q) := by
  simp only [Host.dotGeneral]
  rw [Ideal.dotGeneral_apply, ← Equiv.sum_comp (contrEquiv1 (DR) 128 rfl rfl).symm]
  refine Finset.sum_congr rfl fun k _ => ?_
  have hk := contrEquiv1_symm_val (DR) 128 rfl rfl k
  have el : (DR).lhsIdx (ix2 r q) ((contrEquiv1 (DR) 128 rfl rfl).symm k) = ix2 r k := funext fun a => Fin.ext (by
    match a with
    | ⟨0, _⟩ => exact lhs_row _ _
    | ⟨1, _⟩ => exact ((DR).lhsIdx_val_of_single rfl _ _).trans hk)
  have er : (DR).rhsIdx (ix2 r q) ((contrEquiv1 (DR) 128 rfl rfl).symm k) = ix2 k q := funext fun a => Fin.ext (by
    match a with
    | ⟨0, _⟩ => exact ((DR).rhsIdx_val_of_single rfl _ _).trans hk
    | ⟨1, _⟩ => exact rhs_col _ _)
  rw [el, er]

/-- The degree vector broadcast along the features reads, at `(r, k)`, the degree of node `r`. -/
theorem deg_bcast (dg : FVec Ideal S100000 .f32) (r : Fin 100000) (k : Fin 128) :
    broadcastInDim S100000x128 ![0, 1] bcast_S100000x1_S100000x128_0_1
      (broadcastInDim S100000x1 ![0] bcast_S100000_S100000x1_0 dg) (ix2 r k) = dg (ix1 r) := by
  rw [broadcastInDim_apply ![0, 1] bcast_S100000x1_S100000x128_0_1 _ (ix2 r k) (ix2 r (0 : Fin 1)) (fun a => by
    match a with
    | ⟨0, _⟩ => show r.val = if (100000 : ℕ) = 1 then 0 else r.val; rw [if_neg (by decide)]
    | ⟨1, _⟩ => show (0 : ℕ) = if (1 : ℕ) = 1 then 0 else k.val; rw [if_pos rfl])]
  exact broadcastInDim_apply ![0] bcast_S100000_S100000x1_0 dg (ix2 r (0 : Fin 1)) (ix1 r) (fun a => by
    match a with
    | ⟨0, _⟩ => show r.val = if (100000 : ℕ) = 1 then 0 else r.val; rw [if_neg (by decide)])

/-- The bias vector broadcast along the nodes reads, at `(r, q)`, the bias of feature `q`. -/
theorem bias_bcast (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  rw [broadcastInDim_apply ![0, 1] bcast_S1x128_S100000x128_0_1 _ (ix2 r q) (ix2 (0 : Fin 1) q) (fun a => by
    match a with
    | ⟨0, _⟩ => show (0 : ℕ) = if (1 : ℕ) = 1 then 0 else r.val; rw [if_pos rfl]
    | ⟨1, _⟩ => show q.val = if (128 : ℕ) = 1 then 0 else q.val; rw [if_neg (by decide)])]
  exact broadcastInDim_apply ![1] bcast_S128_S1x128_1 b (ix2 (0 : Fin 1) q) (ix1 q) (fun a => by
    match a with
    | ⟨0, _⟩ => show q.val = if (128 : ℕ) = 1 then 0 else q.val; rw [if_neg (by decide)])

/-- A reference layer over degrees clamped below by one IS the layer function with the reciprocal degrees as scale. -/
theorem refLayer_eq (agg x : FVec Ideal S100000x128 .f32) (dg : FVec Ideal S100000 .f32) (wl wr : FVec Ideal S128x128 .f32)
    (b : FVec Ideal S128 .f32) (hdg : ∀ r : Fin 100000, ∃ e : EReal, dg (ix1 r) = max e (Ideal.ofBits .f32 0x3F800000#32)) :
    refLayer agg x dg wl wr b
      = layer agg x (fun r => Ideal.div (Ideal.ofBits .f32 0x3F800000#32) (dg (ix1 r))) wl wr (fun q => b (ix1 q)) := by
  funext i
  obtain ⟨r, q, rfl⟩ : ∃ (r : Fin 100000) (q : Fin 128), i = ix2 r q := ⟨i 0, i 1, eq_ix2 i⟩
  show (Host.dotGeneral (DR) none
          (Host.divf agg (broadcastInDim S100000x128 ![0, 1] bcast_S100000x1_S100000x128_0_1
            (broadcastInDim S100000x1 ![0] bcast_S100000_S100000x1_0 dg))) wl (ix2 r q)
        + broadcastInDim S100000x128 ![0, 1] bcast_S1x128_S100000x128_0_1 (broadcastInDim S1x128 ![1] bcast_S128_S1x128_1 b) (ix2 r q))
      + Host.dotGeneral (DR) none x wr (ix2 r q)
    = (∑ k : Fin 128, (agg (ix2 r k) * Ideal.div (Ideal.ofBits .f32 0x3F800000#32) (dg (ix1 r))) * wl (ix2 k q)) + b (ix1 q)
      + ∑ k : Fin 128, x (ix2 r k) * wr (ix2 k q)
  rw [dg_apply, dg_apply, bias_bcast]
  refine congrArg (fun s => s + b (ix1 q) + ∑ k : Fin 128, x (ix2 r k) * wr (ix2 k q)) (Finset.sum_congr rfl fun k _ => ?_)
  show Ideal.div (agg (ix2 r k)) (broadcastInDim S100000x128 ![0, 1] bcast_S100000x1_S100000x128_0_1
      (broadcastInDim S100000x1 ![0] bcast_S100000_S100000x1_0 dg) (ix2 r k)) * wl (ix2 k q) = _
  rw [deg_bcast]
  obtain ⟨e, he⟩ := hdg r
  rw [he, mul_div_lit]

/-- The vector of ones the degrees are clamped by. -/
theorem ones_apply (i : S100000.Idx) :
    broadcastInDim S100000 ![] bcast_S_S100000 (constant (F := Ideal) S_ .f32 0x3F800000#32) i = Ideal.ofBits .f32 0x3F800000#32 := rfl

/-- The clamped degrees are clamped. -/
theorem degOf_clamped (dst : IVec S1600000 32) (r : Fin 100000) :
    ∃ e : EReal, degOf dst (ix1 r) = max e (Ideal.ofBits .f32 0x3F800000#32) := by
  unfold degOf
  rw [maximumf_apply, ones_apply]
  exact ⟨_, rfl⟩

/-- The reference's rectifier at an index. -/
theorem refRelu_apply (v : FVec Ideal S100000x128 .f32) (i : S100000x128.Idx) : refRelu v i = max (v i) 0 := by
  show max (v i) (Ideal.ofBits .f32 0x00000000#32) = _
  rw [Ideal.ofBits_zero_f32]

end Cert.ReferenceIdeal.SageRef

end
-- ==== Proof.Bridge.lean ====
/-
  The two programs compute one function.

  Both results are the same two-layer network of the argument arrays: the kernel program's through the two dense
  kernels (scale by the reciprocal degree inside the kernel), the reference's through whole-array operations (divide by
  the degree).  What is left to compare is bookkeeping: the reciprocal-degree column the kernels load is the reciprocal
  of the reference's degree vector read through a reshape; the bias row the kernels load is the bias vector read through
  a reshape; the neighbour sums are the same gather and scatter-add (the kernel program's detour through a narrower float
  format is the identity on the extended reals).
-/
import proofs.«103201_j2654289789451_2_alg».proof.Proof.KerRun
import proofs.«103201_j2654289789451_2_alg».proof.Proof.RefValue
import Idealize.ShloMosaic.Lib.ValueLayout

set_option maxRecDepth 16384

noncomputable section

namespace Cert.Sage

open Idealize.ShloMosaic Idealize.ShloMosaic.ValueIdx
open scoped BigOperators

/-- A vector `[a]` reshaped to a column `[a, 1]` reads, at `(i, u)`, the vector at `i`. -/
theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- The edge rows and the neighbour sums are spelt the same in both programs. -/
theorem src_eq (e : IVec Cert.KernelIdeal.S2x1600000 32) :
    Cert.KernelIdeal.SageValue.srcOf e = Cert.ReferenceIdeal.SageRef.srcOf e := rfl
theorem dst_eq (e : IVec Cert.KernelIdeal.S2x1600000 32) :
    Cert.KernelIdeal.SageValue.dstOf e = Cert.ReferenceIdeal.SageRef.dstOf e := rfl
theorem deg_eq (d : IVec Cert.KernelIdeal.S1600000 32) :
    Cert.KernelIdeal.SageValue.degOf d = Cert.ReferenceIdeal.SageRef.degOf d := rfl
theorem agg_eq (h : FVec Ideal Cert.KernelIdeal.S100000x128 .bf16) (s d : IVec Cert.KernelIdeal.S1600000 32) :
    Cert.KernelIdeal.SageValue.aggOf h s d = Cert.ReferenceIdeal.SageRef.aggOf h s d := rfl

/-- The host's quotient of two arrays at an index. -/
theorem hostDivf_apply {s : Shape} {φ : FTy} (a b : FVec Ideal s φ) (i : s.Idx) :
    Host.divf a b i = Ideal.div (a i) (b i) := rfl

/-- A float literal broadcast to an array reads the literal everywhere. -/
theorem const_bcast_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := rfl

/-- The kernels' scale is the reciprocal of the reference's clamped degree. -/
theorem scale_eq (e : IVec Cert.KernelIdeal.S2x1600000 32) :
    Cert.KernelIdeal.SageValue.scaleOf e
      = fun r => Ideal.div (Ideal.ofBits .f32 0x3F800000#32)
          (Cert.ReferenceIdeal.SageRef.degOf (Cert.ReferenceIdeal.SageRef.dstOf e) (ix1 r)) := by
  funext r
  unfold Cert.KernelIdeal.SageValue.scaleOf Cert.KernelIdeal.SageValue.dinvOf
  rw [cast_col, hostDivf_apply, const_bcast_apply, dst_eq, deg_eq]

/-- The kernels' bias row is the bias vector. -/
theorem bias_eq (b : FVec Ideal Cert.KernelIdeal.S128 .f32) :
    Cert.KernelIdeal.SageValue.biasOf b = fun q => b (ix1 q) := by
  funext q
  unfold Cert.KernelIdeal.SageValue.biasOf
  exact shapeCast_a_1a_apply b _ (0 : Fin 1) q

/-- On the extended reals a change of float format is the identity. -/
theorem trunc_id {s : Shape} (x : FVec Ideal s .f32) (h : FTy.bf16.bits < FTy.f32.bits) : truncf .bf16 x h = x := rfl

/-- The rectified layer is the rectifier of the layer. -/
theorem layerRelu_apply (agg x : Nodes.Idx → EReal) (s : Fin 100000 → EReal) (wl wr : Sq.Idx → EReal) (b : Fin 128 → EReal)
    (i : Nodes.Idx) : layerRelu agg x s wl wr b i = max (layer agg x s wl wr b i) 0 := rfl

open Cert.KernelIdeal.SageValue Cert.ReferenceIdeal.SageRef in
/-- The first layer. -/
theorem hidden_eq (x : FVec Ideal Cert.KernelIdeal.S100000x128 .f32) (e : IVec Cert.KernelIdeal.S2x1600000 32)
    (wl wr : FVec Ideal Cert.KernelIdeal.S128x128 .f32) (b : FVec Ideal Cert.KernelIdeal.S128 .f32) :
    Cert.KernelIdeal.SageValue.hiddenOf x e wl wr b
      = refRelu (refLayer (Cert.ReferenceIdeal.SageRef.aggOf x (Cert.ReferenceIdeal.SageRef.srcOf e) (Cert.ReferenceIdeal.SageRef.dstOf e)) x
          (Cert.ReferenceIdeal.SageRef.degOf (Cert.ReferenceIdeal.SageRef.dstOf e)) wl wr b) := by
  unfold Cert.KernelIdeal.SageValue.hiddenOf
  rw [trunc_id, agg_eq, src_eq, dst_eq, scale_eq, bias_eq, refLayer_eq _ _ _ _ _ _ (degOf_clamped _)]
  funext i
  rw [refRelu_apply, layerRelu_apply]

open Cert.KernelIdeal.SageValue Cert.ReferenceIdeal.SageRef in
/-- The network. -/
theorem out_eq (x : FVec Ideal Cert.KernelIdeal.S100000x128 .f32) (e : IVec Cert.KernelIdeal.S2x1600000 32)
    (wl1 : FVec Ideal Cert.KernelIdeal.S128x128 .f32) (b1 : FVec Ideal Cert.KernelIdeal.S128 .f32)
    (wr1 wl2 : FVec Ideal Cert.KernelIdeal.S128x128 .f32) (b2 : FVec Ideal Cert.KernelIdeal.S128 .f32)
    (wr2 : FVec Ideal Cert.KernelIdeal.S128x128 .f32) :
    outOf x e wl1 b1 wr1 wl2 b2 wr2 = refOut x e wl1 b1 wr1 wl2 b2 wr2 := by
  unfold outOf refOut
  rw [← hidden_eq x e wl1 wr1 b1, refLayer_eq _ _ _ _ _ _ (degOf_clamped _), scale_eq, bias_eq, agg_eq, src_eq, dst_eq]

end Cert.Sage

end
-- ==== Proof.lean ====
/-
  A two-layer mean-aggregation graph convolution on 100000 nodes, 1600000 edges and 128 features: the kernel program
  (neighbour sums and degrees on the host, each layer's dense part in a row-blocked kernel that scales the neighbour
  sum by the reciprocal degree) against the reference (whole-array operations that divide by the degree).

  On the extended reals both programs compute
      out = layer (agg h) h s Wl2 Wr2 b2,     h = max (layer (agg x) x s Wl1 Wr1 b1) 0,
      layer a v s Wl Wr b (r, q) = (∑ₖ (a r k · s r) · Wl k q) + b q + ∑ₖ v r k · Wr k q,
  with `agg v` the sums of `v`'s rows over each node's incoming edges and `s r = 1 / max (deg r) 1`.  The only
  arithmetic difference is `a · (1 / d)` against `a / d`, equal because the clamped degree `d` is not zero; no
  finiteness of the inputs is used.  The idealization rewrote nothing, so it is preserved trivially; the frames are the
  generated ones, the reference's being its generated run with the result dropped.
-/
import proofs.«103201_j2654289789451_2_alg».proof.Defs
import proofs.«103201_j2654289789451_2_alg».proof.Proof.Gen.Kernel
import proofs.«103201_j2654289789451_2_alg».proof.Proof.Gen.Kernel.Skeleton
import proofs.«103201_j2654289789451_2_alg».proof.Proof.Gen.Kernel.Launch
import proofs.«103201_j2654289789451_2_alg».proof.Proof.Gen.Kernel.Points
import proofs.«103201_j2654289789451_2_alg».proof.Proof.Gen.Kernel.Frame
import proofs.«103201_j2654289789451_2_alg».proof.Proof.Gen.KernelIdeal
import proofs.«103201_j2654289789451_2_alg».proof.Proof.Gen.KernelIdeal.Skeleton
import proofs.«103201_j2654289789451_2_alg».proof.Proof.Gen.KernelIdeal.Launch
import proofs.«103201_j2654289789451_2_alg».proof.Proof.Gen.KernelIdeal.Points
import proofs.«103201_j2654289789451_2_alg».proof.Proof.Gen.KernelIdeal.Frame
import proofs.«103201_j2654289789451_2_alg».proof.Proof.Gen.ReferenceIdeal
import proofs.«103201_j2654289789451_2_alg».proof.Proof.Gen.ReferenceIdeal.Run
import proofs.«103201_j2654289789451_2_alg».proof.Proof.Gen.ReferenceIdeal.Read
import proofs.«103201_j2654289789451_2_alg».proof.Proof.Gen.Pre_finite_inputs
import proofs.«103201_j2654289789451_2_alg».proof.Proof.KerRun
import proofs.«103201_j2654289789451_2_alg».proof.Proof.RefValue
import proofs.«103201_j2654289789451_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel program ends with the network's output of its arguments
    in its result buffer, the reference with its whole-array term of the same arguments: one function. -/
theorem algebraic : Cert.algebraic_KernelIdeal_ReferenceIdeal := by
  intro m ρ m' ρ' _ hagree
  refine ⟨fun c => Cert.KernelIdeal.SageValue.resultOf m c, Cert.KernelIdeal.SageValue.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.SageRef.res_eq, h0, h1, h2, h3, h4, h5, h6, h7]
  exact (Cert.Sage.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
